-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x128 .f32) (main_arg3 : FVec F S128x128 .f32) (main_arg4 : FVec F S128x128 .f32) (main_arg5 : FVec F S128x128 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S6400x128 : Shape := ⟨2, ![6400, 128]⟩
abbrev S5000x128 : Shape := ⟨2, ![5000, 128]⟩

abbrev nBuf : Space → Nat
  | .hbm => 44
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S800000x128, .f32⟩
  | .hbm, ⟨37, _⟩ => ⟨S1x800000, .i32⟩
  | .hbm, ⟨38, _⟩ => ⟨S800000, .i32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .bf16⟩
  | .local _ .vmem, ⟨5, _⟩ => ⟨S128x128, .bf16⟩
  | .local _ .vmem, ⟨6, _⟩ => ⟨S6400x128, .f32⟩
  | .local _ .vmem, ⟨7, _⟩ => ⟨S6400x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S128x128, .bf16⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  bitsLt_bf16_f32 : FTy.bits .bf16 < FTy.bits .f32
  transposes_S128x128_S128x128_1_0 : S128x128.Transposes [1, 0] S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S1x800000, .i32⟩
  | .hbm, ⟨36, _⟩ => ⟨S800000, .i32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S800000x128, .f32⟩
  | .hbm, ⟨51, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  transposes_S128x128_S128x128_1_0 : S128x128.Transposes [1, 0] S128x128
  bcast_S_S50000x128 : S_.BroadcastsInDim S50000x128 (![] : Fin 0 → Fin S50000x128.rank)
  bcast_S_S800000x128 : S_.BroadcastsInDim S800000x128 (![] : Fin 0 → Fin S800000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its two result arrays named. The program is four segments: the host
  operations before the edge layer's call, that call, the host operations between the calls, the node layer's call.
  Every weakly fair execution terminates, and the final memory holds, at every buffer that outlives a call, the contents
  the segments' fold leaves there (`Gen.W4`): read here at the two results and at the seven arguments.
-/
import proofs.«176103_j55585466745382_2_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the node result, the edge result and every
    argument at what the last segment boundary's contents say. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibDotGeneral2.lean ====
/-
  The host's `dot_general` of two rank-2 arrays with one contracted axis on each side and no batch axis, read at an
  entry of the result, at the ideal values. There the host's product and the matrix unit's product into a zero
  accumulator are one function of their operands (both are the sum, over the contraction index, of the products of the
  operands' entries; no rounding and no order of summation is left), so each arrangement of the contracted axes reads
  as the plain sum over the contracted coordinate:

  * `dotGeneral_nn_apply`: rows by columns, `out[a, b] = Σ_c A[a, c] · B[c, b]`;
  * `dotGeneral_tn_apply`: the left operand contracted on its rows, `out[a, b] = Σ_c A[c, a] · B[c, b]`;
  * `dotGeneral_nt_apply`: the right operand contracted on its columns, `out[a, b] = Σ_c A[a, c] · B[b, c]`;
  * `dotGeneral_tt_apply`: both, `out[a, b] = Σ_c A[c, a] · B[b, c]`.
-/
import Idealize.ShloMosaic.PureOps.Ideal.Laws
import Idealize.ShloMosaic.Lib.ValueIdx
import proofs.«176103_j55585466745382_2_alg».proof.Proof.LibMatmul2

namespace LibDotGeneral2

open Idealize.ShloMosaic Idealize.ShloMosaic.ValueIdx

/-- At the ideal values the host's `dot_general` is the matrix product with the same dimension numbers into a zero
    accumulator, whatever the precision and schedule keys: both are the contraction's sum. -/
theorem dotGeneral_eq_matmul_zero {sl sr so : Shape} {φ₁ φ₂ : FTy} (d : DotDims sl sr so)
    (prec prec' : Option ContractPrecision) (sched : HostSchedule) (lhs : FVec Ideal sl φ₁) (rhs : FVec Ideal sr φ₂) :
    FloatOps.dotGeneral d prec sched lhs rhs = FloatOps.matmul d prec' lhs rhs (constant so .f32 0x00000000#32) :=
  funext fun j =>
    (Ideal.dotGeneral_apply d prec sched lhs rhs j).trans (Ideal.matmul_constant_zero_apply d prec' lhs rhs j).symm

variable {m k n : Nat} {φ₁ φ₂ : FTy}

/-- Rows by columns. -/
theorem dotGeneral_nn_apply
    (w : DotDims.WF ⟨2, ![m, k]⟩ ⟨2, ![k, n]⟩ ⟨2, ![m, n]⟩ [1] [0] [0] [1] [] [])
    (prec : Option ContractPrecision) (sched : HostSchedule)
    (A : FVec Ideal ⟨2, ![m, k]⟩ φ₁) (B : FVec Ideal ⟨2, ![k, n]⟩ φ₂) (a : Fin m) (b : Fin n) :
    FloatOps.dotGeneral (⟨[1], [0], [0], [1], [], [], w⟩ : DotDims _ _ _) prec sched A B (ix2 a b)
      = ∑ c : Fin k, A (ix2 a c) * B (ix2 c b) := by
  rw [dotGeneral_eq_matmul_zero _ prec prec sched]
  exact LibMatmul2.matmul_nn_apply w prec A B a b

/-- The left operand contracted on its rows. -/
theorem dotGeneral_tn_apply
    (w : DotDims.WF ⟨2, ![k, m]⟩ ⟨2, ![k, n]⟩ ⟨2, ![m, n]⟩ [0] [0] [1] [1] [] [])
    (prec : Option ContractPrecision) (sched : HostSchedule)
    (A : FVec Ideal ⟨2, ![k, m]⟩ φ₁) (B : FVec Ideal ⟨2, ![k, n]⟩ φ₂) (a : Fin m) (b : Fin n) :
    FloatOps.dotGeneral (⟨[0], [0], [1], [1], [], [], w⟩ : DotDims _ _ _) prec sched A B (ix2 a b)
      = ∑ c : Fin k, A (ix2 c a) * B (ix2 c b) := by
  rw [dotGeneral_eq_matmul_zero _ prec prec sched]
  exact LibMatmul2.matmul_tn_apply w prec A B a b

/-- The right operand contracted on its columns. -/
theorem dotGeneral_nt_apply
    (w : DotDims.WF ⟨2, ![m, k]⟩ ⟨2, ![n, k]⟩ ⟨2, ![m, n]⟩ [1] [1] [0] [0] [] [])
    (prec : Option ContractPrecision) (sched : HostSchedule)
    (A : FVec Ideal ⟨2, ![m, k]⟩ φ₁) (B : FVec Ideal ⟨2, ![n, k]⟩ φ₂) (a : Fin m) (b : Fin n) :
    FloatOps.dotGeneral (⟨[1], [1], [0], [0], [], [], w⟩ : DotDims _ _ _) prec sched A B (ix2 a b)
      = ∑ c : Fin k, A (ix2 a c) * B (ix2 b c) := by
  rw [dotGeneral_eq_matmul_zero _ prec prec sched]
  exact LibMatmul2.matmul_nt_apply w prec A B a b

/-- The left operand contracted on its rows and the right one on its columns. -/
theorem dotGeneral_tt_apply
    (w : DotDims.WF ⟨2, ![k, m]⟩ ⟨2, ![n, k]⟩ ⟨2, ![m, n]⟩ [0] [1] [1] [0] [] [])
    (prec : Option ContractPrecision) (sched : HostSchedule)
    (A : FVec Ideal ⟨2, ![k, m]⟩ φ₁) (B : FVec Ideal ⟨2, ![n, k]⟩ φ₂) (a : Fin m) (b : Fin n) :
    FloatOps.dotGeneral (⟨[0], [1], [1], [0], [], [], w⟩ : DotDims _ _ _) prec sched A B (ix2 a b)
      = ∑ c : Fin k, A (ix2 c a) * B (ix2 b c) := by
  rw [dotGeneral_eq_matmul_zero _ prec prec sched]
  exact LibMatmul2.matmul_tt_apply w prec A B a b

end LibDotGeneral2
-- ==== Proof.RowUpdate.lean ====
/-
  One linear update of a block of rows followed by a clamp at zero, over the extended reals:

      out[r, c] = max (Σ_k A[r, k] · W[k, c] + Σ_k X[r, k] · B[k, c] + X[r, c]) 0

  for an [n, 128] pair of row arrays A, X and two [128, 128] matrices W, B. Both layers of the message-passing step have
  this form (the rows are the edges, then the nodes). Two spellings of it are read here at an entry: the one a kernel body
  computes on a block (operands rounded to a narrower float format, which changes nothing at the ideal values; two
  products on the matrix unit into zero accumulators; two sums; a maximum against the splat of the zero word), and the
  one a host program computes on whole arrays (two dot_generals; two sums; a maximum against the broadcast zero constant).
-/
import Idealize.ShloMosaic.PureOps.Ideal.Laws
import Idealize.ShloMosaic.Lib.ValueIdx
import Idealize.ShloMosaic.Lib.Pipeline.Value
import proofs.«176103_j55585466745382_2_alg».proof.Proof.LibMatmul2
import proofs.«176103_j55585466745382_2_alg».proof.Proof.LibDotGeneral2

noncomputable section

namespace Cert.RowUpdate

open Idealize.ShloMosaic Idealize.ShloMosaic.ValueIdx

/-- Entry (r, c) of max (A·W + X·B + X) 0. -/
def entry {n : Nat} (A X : (⟨2, ![n, 128]⟩ : Shape).Idx → EReal) (W B : (⟨2, ![128, 128]⟩ : Shape).Idx → EReal)
    (r : Fin n) (c : Fin 128) : EReal :=
  max ((∑ k : Fin 128, A (ix2 r k) * W (ix2 k c)) + (∑ k : Fin 128, X (ix2 r k) * B (ix2 k c)) + X (ix2 r c)) 0

/-- The whole [n, 128] array max (A·W + X·B + X) 0. -/
def rows {n : Nat} (A X : (⟨2, ![n, 128]⟩ : Shape).Idx → EReal) (W B : (⟨2, ![128, 128]⟩ : Shape).Idx → EReal) :
    (⟨2, ![n, 128]⟩ : Shape).Idx → EReal :=
  fun i => entry A X W B ⟨(i 0).val, idx2_lt0 i⟩ ⟨(i 1).val, idx2_lt1 i⟩

theorem rows_ix2 {n : Nat} (A X : (⟨2, ![n, 128]⟩ : Shape).Idx → EReal) (W B : (⟨2, ![128, 128]⟩ : Shape).Idx → EReal)
    (r : Fin n) (c : Fin 128) : rows A X W B (ix2 r c) = entry A X W B r c := rfl

/-- An entry of the update depends only on one row of each row array and on the two matrices. -/
theorem entry_congr {n N : Nat} (A' X' : (⟨2, ![n, 128]⟩ : Shape).Idx → EReal) (W' B' : (⟨2, ![128, 128]⟩ : Shape).Idx → EReal)
    (A X : (⟨2, ![N, 128]⟩ : Shape).Idx → EReal) (W B : (⟨2, ![128, 128]⟩ : Shape).Idx → EReal)
    (r : Fin n) (R : Fin N) (c c' : Fin 128) (hc : c = c')
    (hA : ∀ k : Fin 128, A' (ix2 r k) = A (ix2 R k)) (hX : ∀ k : Fin 128, X' (ix2 r k) = X (ix2 R k))
    (hW : ∀ k q : Fin 128, W' (ix2 k q) = W (ix2 k q)) (hB : ∀ k q : Fin 128, B' (ix2 k q) = B (ix2 k q)) :
    entry A' X' W' B' r c = entry A X W B R c' := by
  subst hc
  unfold entry
  simp only [hA, hX, hW, hB]

/-- The kernel body's spelling on a block of n rows: the row operands rounded to bf16 (the identity here), two matrix
    products into zero accumulators, the two sums, the maximum with the splat zero. -/
theorem kernel_form {n : Nat}
    (wf : DotDims.WF ⟨2, ![n, 128]⟩ ⟨2, ![128, 128]⟩ ⟨2, ![n, 128]⟩ [1] [0] [0] [1] [] [])
    (h : FTy.bits .bf16 < FTy.bits .f32)
    (A X : FVec Ideal ⟨2, ![n, 128]⟩ .f32) (W B : FVec Ideal ⟨2, ![128, 128]⟩ .bf16) :
    maximumf (addf (addf
        (matmul (⟨[1], [0], [0], [1], [], [], wf⟩ : DotDims _ _ _) none (truncf .bf16 A h) W (constant _ .f32 0x00000000#32))
        (matmul (⟨[1], [0], [0], [1], [], [], wf⟩ : DotDims _ _ _) none (truncf .bf16 X h) B (constant _ .f32 0x00000000#32))) X)
      (broadcast ⟨2, ![n, 128]⟩ (Scalar.ofBits (F := Ideal) .f32 0x00000000#32))
      = rows A X W B := by
  funext i
  obtain ⟨r, c, rfl⟩ : ∃ (r : Fin n) (c : Fin 128), i = ix2 r c := ⟨i 0, i 1, eq_ix2 i⟩
  rw [rows_ix2]
  show max (FloatOps.matmul (⟨[1], [0], [0], [1], [], [], wf⟩ : DotDims _ _ _) none (truncf .bf16 A h) W (constant _ .f32 0x00000000#32) (ix2 r c)
      + FloatOps.matmul (⟨[1], [0], [0], [1], [], [], wf⟩ : DotDims _ _ _) none (truncf .bf16 X h) B (constant _ .f32 0x00000000#32) (ix2 r c)
      + X (ix2 r c)) (Ideal.ofBits .f32 0x00000000#32) = _
  rw [LibMatmul2.matmul_nn_apply, LibMatmul2.matmul_nn_apply, Ideal.ofBits_zero_f32]
  rfl

/-- The host's spelling on the whole [n, 128] array: two dot_generals, the two sums, the maximum with the broadcast
    zero constant. -/
theorem host_form {n : Nat}
    (wf : DotDims.WF ⟨2, ![n, 128]⟩ ⟨2, ![128, 128]⟩ ⟨2, ![n, 128]⟩ [1] [0] [0] [1] [] [])
    (hb : (⟨0, ![]⟩ : Shape).BroadcastsInDim ⟨2, ![n, 128]⟩ (![] : Fin 0 → Fin 2))
    (A X : FVec Ideal ⟨2, ![n, 128]⟩ .f32) (W B : FVec Ideal ⟨2, ![128, 128]⟩ .f32) :
    maximumf (addf (addf
        (Host.dotGeneral (⟨[1], [0], [0], [1], [], [], wf⟩ : DotDims _ _ _) none A W)
        (Host.dotGeneral (⟨[1], [0], [0], [1], [], [], wf⟩ : DotDims _ _ _) none X B)) X)
      (broadcastInDim ⟨2, ![n, 128]⟩ ![] hb (constant (F := Ideal) ⟨0, ![]⟩ .f32 0x00000000#32))
      = rows A X W B := by
  funext i
  obtain ⟨r, c, rfl⟩ : ∃ (r : Fin n) (c : Fin 128), i = ix2 r c := ⟨i 0, i 1, eq_ix2 i⟩
  rw [rows_ix2]
  have hz : broadcastInDim ⟨2, ![n, 128]⟩ ![] hb (constant (F := Ideal) ⟨0, ![]⟩ .f32 0x00000000#32) (ix2 r c) = (0 : EReal) := by
    rw [broadcastInDim_apply _ hb _ (ix2 r c) (fun a => a.elim0) (fun a => a.elim0)]
    exact Ideal.ofBits_zero_f32
  show max (FloatOps.dotGeneral (⟨[1], [0], [0], [1], [], [], wf⟩ : DotDims _ _ _) none HostSchedule.single A W (ix2 r c)
      + FloatOps.dotGeneral (⟨[1], [0], [0], [1], [], [], wf⟩ : DotDims _ _ _) none HostSchedule.single X B (ix2 r c)
      + X (ix2 r c)) (broadcastInDim ⟨2, ![n, 128]⟩ ![] hb (constant (F := Ideal) ⟨0, ![]⟩ .f32 0x00000000#32) (ix2 r c)) = _
  rw [LibDotGeneral2.dotGeneral_nn_apply, LibDotGeneral2.dotGeneral_nn_apply, hz]
  rfl

end Cert.RowUpdate

end
-- ==== Proof.EdgeLayer.lean ====
/-
  The edge layer's pallas_call, read as a value. The call walks the 800000 edge rows in 125 blocks of 6400 rows; at
  block t its body sees rows 6400·t … 6400·t + 6399 of the difference array and of the edge array and the two whole
  [128, 128] weight matrices, and writes rows 6400·t … of the result. Since entry (r, c) of max (D·W + E·B + E) 0 depends
  only on row r of D and of E, what block t writes is block t of that one whole-array function, and the 125 blocks
  cover the result array: after the call the result array IS that function of the arrays the call found.
-/
import proofs.«176103_j55585466745382_2_alg».proof.Proof.Gen.KernelIdeal.Frame
import Idealize.ShloMosaic.Lib.Pipeline.Value
import Idealize.ShloMosaic.Lib.ValueIdx
import proofs.«176103_j55585466745382_2_alg».proof.Proof.RowUpdate

noncomputable section

namespace Cert.KernelIdeal.EdgeLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the row update of its four loaded blocks. -/
theorem payload (x0 x1 : Vec Ideal S6400x128 .f32) (x2 x3 : Vec Ideal S128x128 .bf16) :
    k0_pay1 x0 x1 x2 x3 = Cert.RowUpdate.rows (n := 6400) x0 x1 x2 x3 := by
  unfold k0_pay1
  simp only [shapeCast_self]
  exact Cert.RowUpdate.kernel_form (n := 6400) _ _ x0 x1 x2 x3

/-- The printed index maps over the grid: the two row windows and the result window sit at block row t, column block 0;
    the two weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the difference window's block at point t is row 6400·t + p of the array. -/
theorem block0 (c : Dev nD) (t : Fin cfg0.N) (p : Fin 6400) (k : Fin 128) (R : Fin 800000) (hR : R.val = t.val * 6400 + p.val) :
    (iblk0 V c 0 t : S6400x128.Idx → EReal) (ix2 p k) = (V c main_v18 : S800000x128.Idx → EReal) (ix2 R k) := by
  obtain ⟨e0, e1, -⟩ := idx_facts t
  unfold iblk0
  rw [View.read_apply]
  show (V c main_v18 : S800000x128.Idx → EReal) _ = _
  refine congrArg _ (funext fun a => Fin.ext ?_)
  match a with
  | ⟨0, _⟩ => show win0_0.index t (0 : Fin 2) * 6400 + 1 * p.val = R.val; rw [e0, hR]; omega
  | ⟨1, _⟩ => show win0_0.index t (1 : Fin 2) * 128 + 1 * k.val = k.val; rw [e1]; omega

/-- Row p of the edge window's block at point t is row 6400·t + p of the array. -/
theorem block1 (c : Dev nD) (t : Fin cfg0.N) (p : Fin 6400) (k : Fin 128) (R : Fin 800000) (hR : R.val = t.val * 6400 + p.val) :
    (iblk0 V c 1 t : S6400x128.Idx → EReal) (ix2 p k) = (V c main_arg2 : S800000x128.Idx → EReal) (ix2 R k) := by
  obtain ⟨-, -, e0, e1, -⟩ := idx_facts t
  unfold iblk0
  rw [View.read_apply]
  show (V c main_arg2 : S800000x128.Idx → EReal) _ = _
  refine congrArg _ (funext fun a => Fin.ext ?_)
  match a with
  | ⟨0, _⟩ => show win0_1.index t (0 : Fin 2) * 6400 + 1 * p.val = R.val; rw [e0, hR]; omega
  | ⟨1, _⟩ => show win0_1.index t (1 : Fin 2) * 128 + 1 * k.val = k.val; rw [e1]; omega

/-- The first weight window's block is its whole matrix at every point. -/
theorem block2 (c : Dev nD) (t : Fin cfg0.N) (k q : Fin 128) :
    (iblk0 V c 2 t : S128x128.Idx → EReal) (ix2 k q) = (V c main_v19 : S128x128.Idx → EReal) (ix2 k q) := by
  obtain ⟨-, -, -, -, e0, e1, -⟩ := idx_facts t
  unfold iblk0
  rw [View.read_apply]
  show (V c main_v19 : S128x128.Idx → EReal) _ = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight window's block is its whole matrix at every point. -/
theorem block3 (c : Dev nD) (t : Fin cfg0.N) (k q : Fin 128) :
    (iblk0 V c 3 t : S128x128.Idx → EReal) (ix2 k q) = (V c main_v21 : S128x128.Idx → EReal) (ix2 k q) := by
  obtain ⟨-, -, -, -, -, -, e0, e1, -⟩ := idx_facts t
  unfold iblk0
  rw [View.read_apply]
  show (V c main_v21 : S128x128.Idx → EReal) _ = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The whole-array function the result array ends holding. -/
abbrev result (c : Dev nD) : S800000x128.Idx → EReal :=
  Cert.RowUpdate.rows (n := 800000) (V c main_v18) (V c main_arg2) (V c main_v19) (V c main_v21)

/-- What point t writes back is block t of the whole-array function. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S6400x128) hz, View.ld_unit_zero (S := S128x128) hz]
  rw [payload]
  obtain ⟨-, -, -, -, -, -, -, -, e0, e1⟩ := idx_facts t
  funext j
  rw [View.read_apply]
  have hj0 : (j 0).val < 6400 := (j 0).isLt
  have hj1 : (j 1).val < 128 := (j 1).isLt
  have hR : ((((cfg0.win 4).blk t).view.emb j) 0).val = t.val * 6400 + (j 0).val := by
    show win0_4.index t (0 : Fin 2) * 6400 + 1 * (j 0).val = _; rw [e0]; omega
  have hC : ((((cfg0.win 4).blk t).view.emb j) 1).val = (j 1).val := by
    show win0_4.index t (1 : Fin 2) * 128 + 1 * (j 1).val = _; rw [e1]; omega
  show Cert.RowUpdate.entry (n := 6400) (iblk0 V c 0 t) (iblk0 V c 1 t) (iblk0 V c 2 t) (iblk0 V c 3 t) ⟨(j 0).val, hj0⟩ ⟨(j 1).val, hj1⟩
    = Cert.RowUpdate.entry (n := 800000) (V c main_v18) (V c main_arg2) (V c main_v19) (V c main_v21)
        ⟨((((cfg0.win 4).blk t).view.emb j) 0).val, (((cfg0.win 4).blk t).view.emb j 0).isLt⟩
        ⟨((((cfg0.win 4).blk t).view.emb j) 1).val, (((cfg0.win 4).blk t).view.emb j 1).isLt⟩
  refine Cert.RowUpdate.entry_congr _ _ _ _ _ _ _ _ _ _ _ _ (Fin.ext hC.symm)
    (fun k => block0 V c t _ k _ hR) (fun k => block1 V c t _ k _ hR) (fun k q => block2 V c t k q) (fun k q => block3 V c t k q)

/-- An index of the result array is in point t's block iff each coordinate is in the block's range on its axis. -/
theorem mem_blk (t : Fin cfg0.N) (i : S800000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v25).slice (win0_4.rect t)).set ↔ _
  rw [View.set_slice_whole, Rect.mem_set_unit]
  exact Iff.rfl

/-- Every row of the result array is in the block of the point its row number divided by 6400 names. -/
theorem cover (i : S800000x128.Idx) : ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 125 := N_0
  let t : Fin cfg0.N := ⟨(i 0).val / 6400, by rw [hN]; omega⟩
  obtain ⟨-, -, -, -, -, -, -, -, e0, e1⟩ := idx_facts t
  refine ⟨t, flush0_4 t, ?_⟩
  rw [mem_blk]
  intro a
  match a with
  | ⟨0, _⟩ => show win0_4.index t (0 : Fin 2) * 6400 ≤ (i 0).val ∧ (i 0).val < win0_4.index t (0 : Fin 2) * 6400 + 6400
              rw [e0]; show (i 0).val / 6400 * 6400 ≤ (i 0).val ∧ (i 0).val < (i 0).val / 6400 * 6400 + 6400; omega
  | ⟨1, _⟩ => show win0_4.index t (1 : Fin 2) * 128 ≤ (i 1).val ∧ (i 1).val < win0_4.index t (1 : Fin 2) * 128 + 128
              rw [e1]; omega

/-- After the call the result array is the row update of the arrays the call found. -/
theorem final (c : Dev nD) : (dat0 V c).arrAt 4 cfg0.N = result V c :=
  (dat0 V c).arrAt_eq_of_cover 4 (result V c) (fun t _ => flushed_eq V c t) cover

end Cert.KernelIdeal.EdgeLayer

end
-- ==== Proof.NodeLayer.lean ====
/-
  The node layer's pallas_call, read as a value. The call walks the 50000 node rows in 10 blocks of 5000 rows; at block
  t its body sees rows 5000·t … 5000·t + 4999 of the aggregated-message array and of the node array and the two whole
  [128, 128] weight matrices, and writes rows 5000·t … of the result. Entry (r, c) of max (S·W + X·B + X) 0 depends only on
  row r of S and of X, so what block t writes is block t of that one whole-array function, and the 10 blocks cover the
  result array: after the call the result array IS that function of the arrays the call found.
-/
import proofs.«176103_j55585466745382_2_alg».proof.Proof.Gen.KernelIdeal.Frame
import Idealize.ShloMosaic.Lib.Pipeline.Value
import Idealize.ShloMosaic.Lib.ValueIdx
import proofs.«176103_j55585466745382_2_alg».proof.Proof.RowUpdate

noncomputable section

namespace Cert.KernelIdeal.NodeLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the row update of its four loaded blocks. -/
theorem payload (x0 x1 : Vec Ideal S5000x128 .f32) (x2 x3 : Vec Ideal S128x128 .bf16) :
    k1_pay1 x0 x1 x2 x3 = Cert.RowUpdate.rows (n := 5000) x0 x1 x2 x3 := by
  unfold k1_pay1
  simp only [shapeCast_self]
  exact Cert.RowUpdate.kernel_form (n := 5000) _ _ x0 x1 x2 x3

/-- The printed index maps over the grid: the two row windows and the result window sit at block row t, column block 0;
    the two weight windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the aggregate window's block at point t is row 5000·t + p of the array. -/
theorem block0 (c : Dev nD) (t : Fin cfg1.N) (p : Fin 5000) (k : Fin 128) (R : Fin 50000) (hR : R.val = t.val * 5000 + p.val) :
    (iblk1 V c 0 t : S5000x128.Idx → EReal) (ix2 p k) = (V c main_v30 : S50000x128.Idx → EReal) (ix2 R k) := by
  obtain ⟨e0, e1, -⟩ := idx_facts t
  unfold iblk1
  rw [View.read_apply]
  show (V c main_v30 : S50000x128.Idx → EReal) _ = _
  refine congrArg _ (funext fun a => Fin.ext ?_)
  match a with
  | ⟨0, _⟩ => show win1_0.index t (0 : Fin 2) * 5000 + 1 * p.val = R.val; rw [e0, hR]; omega
  | ⟨1, _⟩ => show win1_0.index t (1 : Fin 2) * 128 + 1 * k.val = k.val; rw [e1]; omega

/-- Row p of the node window's block at point t is row 5000·t + p of the array. -/
theorem block1 (c : Dev nD) (t : Fin cfg1.N) (p : Fin 5000) (k : Fin 128) (R : Fin 50000) (hR : R.val = t.val * 5000 + p.val) :
    (iblk1 V c 1 t : S5000x128.Idx → EReal) (ix2 p k) = (V c main_arg0 : S50000x128.Idx → EReal) (ix2 R k) := by
  obtain ⟨-, -, e0, e1, -⟩ := idx_facts t
  unfold iblk1
  rw [View.read_apply]
  show (V c main_arg0 : S50000x128.Idx → EReal) _ = _
  refine congrArg _ (funext fun a => Fin.ext ?_)
  match a with
  | ⟨0, _⟩ => show win1_1.index t (0 : Fin 2) * 5000 + 1 * p.val = R.val; rw [e0, hR]; omega
  | ⟨1, _⟩ => show win1_1.index t (1 : Fin 2) * 128 + 1 * k.val = k.val; rw [e1]; omega

/-- The first weight window's block is its whole matrix at every point. -/
theorem block2 (c : Dev nD) (t : Fin cfg1.N) (k q : Fin 128) :
    (iblk1 V c 2 t : S128x128.Idx → EReal) (ix2 k q) = (V c main_v22 : S128x128.Idx → EReal) (ix2 k q) := by
  obtain ⟨-, -, -, -, e0, e1, -⟩ := idx_facts t
  unfold iblk1
  rw [View.read_apply]
  show (V c main_v22 : S128x128.Idx → EReal) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight window's block is its whole matrix at every point. -/
theorem block3 (c : Dev nD) (t : Fin cfg1.N) (k q : Fin 128) :
    (iblk1 V c 3 t : S128x128.Idx → EReal) (ix2 k q) = (V c main_v24 : S128x128.Idx → EReal) (ix2 k q) := by
  obtain ⟨-, -, -, -, -, -, e0, e1, -⟩ := idx_facts t
  unfold iblk1
  rw [View.read_apply]
  show (V c main_v24 : S128x128.Idx → EReal) _ = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The whole-array function the result array ends holding. -/
abbrev result (c : Dev nD) : S50000x128.Idx → EReal :=
  Cert.RowUpdate.rows (n := 50000) (V c main_v30) (V c main_arg0) (V c main_v22) (V c main_v24)

/-- What point t writes back is block t of the whole-array function. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  rw [payload]
  obtain ⟨-, -, -, -, -, -, -, -, e0, e1⟩ := idx_facts t
  funext j
  rw [View.read_apply]
  have hj0 : (j 0).val < 5000 := (j 0).isLt
  have hj1 : (j 1).val < 128 := (j 1).isLt
  have hR : ((((cfg1.win 4).blk t).view.emb j) 0).val = t.val * 5000 + (j 0).val := by
    show win1_4.index t (0 : Fin 2) * 5000 + 1 * (j 0).val = _; rw [e0]; omega
  have hC : ((((cfg1.win 4).blk t).view.emb j) 1).val = (j 1).val := by
    show win1_4.index t (1 : Fin 2) * 128 + 1 * (j 1).val = _; rw [e1]; omega
  show Cert.RowUpdate.entry (n := 5000) (iblk1 V c 0 t) (iblk1 V c 1 t) (iblk1 V c 2 t) (iblk1 V c 3 t) ⟨(j 0).val, hj0⟩ ⟨(j 1).val, hj1⟩
    = Cert.RowUpdate.entry (n := 50000) (V c main_v30) (V c main_arg0) (V c main_v22) (V c main_v24)
        ⟨((((cfg1.win 4).blk t).view.emb j) 0).val, (((cfg1.win 4).blk t).view.emb j 0).isLt⟩
        ⟨((((cfg1.win 4).blk t).view.emb j) 1).val, (((cfg1.win 4).blk t).view.emb j 1).isLt⟩
  refine Cert.RowUpdate.entry_congr _ _ _ _ _ _ _ _ _ _ _ _ (Fin.ext hC.symm)
    (fun k => block0 V c t _ k _ hR) (fun k => block1 V c t _ k _ hR) (fun k q => block2 V c t k q) (fun k q => block3 V c t k q)

/-- An index of the result array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- Every row of the result array is in the block of the point its row number divided by 5000 names. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000
              rw [e0]; show (i 0).val / 5000 * 5000 ≤ (i 0).val ∧ (i 0).val < (i 0).val / 5000 * 5000 + 5000; omega
  | ⟨1, _⟩ => show win1_4.index t (1 : Fin 2) * 128 ≤ (i 1).val ∧ (i 1).val < win1_4.index t (1 : Fin 2) * 128 + 128
              rw [e1]; omega

/-- After the call the result array is the row update of the arrays the call found. -/
theorem final (c : Dev nD) : (dat1 V c).arrAt 4 cfg1.N = result V c :=
  (dat1 V c).arrAt_eq_of_cover 4 (result V c) (fun t _ => flushed_eq V c t) cover

end Cert.KernelIdeal.NodeLayer

end
-- ==== Proof.HostValues.lean ====
/-
  The buffer contents at the kernel program's segment boundaries as functions of the launch memory.

  Before the edge layer's call the host has gathered the node rows at each edge's target and source, subtracted them,
  and prepared the two weight matrices (a change of float format, and for the second a transpose first). Between the
  calls it scatter-adds the edge rows into a zero [50000, 128] array at each edge's target. No host operation and no
  call writes an argument, and the first call writes nothing the second reads except through the arguments, so each
  array a call reads is one explicit term of the arguments, and each result array is the row update
  (`Cert.RowUpdate.rows`) of such terms.
-/
import proofs.«176103_j55585466745382_2_alg».proof.Proof.Gen.KernelIdeal.Frame
import Idealize.ShloMosaic.Lib.StableHlo.Run
import proofs.«176103_j55585466745382_2_alg».proof.Proof.EdgeLayer
import proofs.«176103_j55585466745382_2_alg».proof.Proof.NodeLayer

noncomputable section

namespace Cert.KernelIdeal.Boundaries

open Cert.KernelIdeal Cert.KernelIdeal.Gen Idealize.ShloMosaic Idealize.ShloMosaic.TcCoe Idealize.SL.Sem Idealize.ShloMosaic.StableHlo
open Idealize.ShloMosaic.Pipeline (Dat)

/-- One row of the edge list as a flat vector of 800000 node numbers. -/
def tgtRow (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000
def srcRow (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- A negative node number counted from the end (the indexing convention of the gather's caller). -/
def wrapped (i : (⟨S800000, .i32⟩ : BufTy).Contents (Elt Ideal)) : (⟨S800000, .i32⟩ : BufTy).Contents (Elt Ideal) :=
  select (cmpi .slt i (broadcastInDim S800000 ![] bcast_S_S800000 (constantI S_ 32 0#32)))
    (addi i (broadcastInDim S800000 ![] bcast_S_S800000 (constantI S_ 32 50000#32))) i

/-- The difference of the node rows at each edge's target and source. -/
def diff (x0 : FVec Ideal S50000x128 .f32) (x1 : (⟨S2x800000, .i32⟩ : BufTy).Contents (Elt Ideal)) :
    FVec Ideal S800000x128 .f32 :=
  subf (F := Ideal) (Host.gather gather_S50000x128_S800000x1_S800000x128_1_0_n_n_0_1_1128 x0 (broadcastInDim S800000x1 ![0] bcast_S800000_S800000x1_0 (wrapped (tgtRow x1))))
    (Host.gather gather_S50000x128_S800000x1_S800000x128_1_0_n_n_0_1_1128 x0 (broadcastInDim S800000x1 ![0] bcast_S800000_S800000x1_0 (wrapped (srcRow x1))))

/-- The edge rows summed into their target nodes. -/
def agg (x1 : (⟨S2x800000, .i32⟩ : BufTy).Contents (Elt Ideal)) (x2 : FVec Ideal S800000x128 .f32) :
    FVec Ideal S50000x128 .f32 :=
  Host.scatterAdd (F := Ideal) scatter_S50000x128_S800000x1_S800000x128_1_0_0_1 (broadcastInDim S50000x128 ![] bcast_S_S50000x128 (constant (F := Ideal) S_ .f32 0x00000000#32))
    (broadcastInDim S800000x1 ![0] bcast_S800000_S800000x1_0 (tgtRow x1)) x2

/-- A weight matrix in the narrower float format the calls take it in (the same matrix at the ideal values). -/
def narrowed (w : FVec Ideal S128x128 .f32) : FVec Ideal S128x128 .bf16 := truncf .bf16 w bitsLt_bf16_f32
/-- A weight matrix transposed, then in the narrower format. -/
def narrowedT (w : FVec Ideal S128x128 .f32) : FVec Ideal S128x128 .bf16 :=
  truncf .bf16 (transpose S128x128 [1, 0] w transposes_S128x128_S128x128_1_0) bitsLt_bf16_f32

variable (m : (ℓ : Loc nD τ sig) → Buf (Elt Ideal) ℓ) (ρ : Dev nD → PrngReg)

/-! ## What the edge layer's call finds -/

theorem V1_v18 (c : Dev nD) : V1 m ρ c main_v18 = diff (m ((c : Thread nD τ).loc main_arg0)) (m ((c : Thread nD τ).loc main_arg1)) := by
  show StableHlo.after hostOps0 (W0 m ρ c) (Proc.devRef .tc main_v18) = _
  after_results_simp <;> rfl
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg1 (c : Dev nD) : V1 m ρ c main_arg1 = m ((c : Thread nD τ).loc main_arg1) := by
  show StableHlo.after hostOps0 (W0 m ρ c) (Proc.devRef .tc main_arg1) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_v19 (c : Dev nD) : V1 m ρ c main_v19 = narrowed (m ((c : Thread nD τ).loc main_arg4)) := by
  show StableHlo.after hostOps0 (W0 m ρ c) (Proc.devRef .tc main_v19) = _
  after_results_simp <;> rfl
theorem V1_v21 (c : Dev nD) : V1 m ρ c main_v21 = narrowedT (m ((c : Thread nD τ).loc main_arg5)) := by
  show StableHlo.after hostOps0 (W0 m ρ c) (Proc.devRef .tc main_v21) = _
  after_results_simp <;> rfl
theorem V1_v22 (c : Dev nD) : V1 m ρ c main_v22 = narrowed (m ((c : Thread nD τ).loc main_arg3)) := by
  show StableHlo.after hostOps0 (W0 m ρ c) (Proc.devRef .tc main_v22) = _
  after_results_simp <;> rfl
theorem V1_v24 (c : Dev nD) : V1 m ρ c main_v24 = narrowedT (m ((c : Thread nD τ).loc main_arg6)) := by
  show StableHlo.after hostOps0 (W0 m ρ c) (Proc.devRef .tc main_v24) = _
  after_results_simp <;> rfl

/-! ## What the node layer's call finds -/

/-- The edge layer's call leaves a buffer that is none of its five arrays as it found it. -/
theorem W2_arg0 (c : Dev nD) : W2 m ρ c (Proc.devRef .tc main_arg0) = m ((c : Thread nD τ).loc main_arg0) :=
  (W2_of_ne m ρ c main_arg0 (by decide)).trans (V1_arg0 m ρ c)
theorem W2_arg1 (c : Dev nD) : W2 m ρ c (Proc.devRef .tc main_arg1) = m ((c : Thread nD τ).loc main_arg1) :=
  (W2_of_ne m ρ c main_arg1 (by decide)).trans (V1_arg1 m ρ c)
theorem W2_v22 (c : Dev nD) : W2 m ρ c (Proc.devRef .tc main_v22) = narrowed (m ((c : Thread nD τ).loc main_arg3)) :=
  (W2_of_ne m ρ c main_v22 (by decide)).trans (V1_v22 m ρ c)
theorem W2_v24 (c : Dev nD) : W2 m ρ c (Proc.devRef .tc main_v24) = narrowedT (m ((c : Thread nD τ).loc main_arg6)) :=
  (W2_of_ne m ρ c main_v24 (by decide)).trans (V1_v24 m ρ c)
/-- The edge array is an input of the edge layer's call: read, never written back. -/
theorem W2_arg2 (c : Dev nD) : W2 m ρ c (Proc.devRef .tc main_arg2) = m ((c : Thread nD τ).loc main_arg2) :=
  (W2_arr m ρ c 1).trans ((((dat0 (V1 m ρ) c).arrAt_in 1 rfl _).trans (A_eq0 (V1 m ρ) c 1)).trans (V1_arg2 m ρ c))
/-- The edge result is the call's output array. -/
theorem W2_v25 (c : Dev nD) : W2 m ρ c (Proc.devRef .tc main_v25) = (dat0 (V1 m ρ) c).arrAt 4 cfg0.N := W2_arr m ρ c 4

theorem V3_v30 (c : Dev nD) : V3 m ρ c main_v30 = agg (m ((c : Thread nD τ).loc main_arg1)) (m ((c : Thread nD τ).loc main_arg2)) := by
  show StableHlo.after hostOps1 (W2 m ρ c) (Proc.devRef .tc main_v30) = _
  after_results
  rw [W2_arg1, W2_arg2]
  rfl
theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_v22 (c : Dev nD) : V3 m ρ c main_v22 = narrowed (m ((c : Thread nD τ).loc main_arg3)) := by
  show StableHlo.after hostOps1 (W2 m ρ c) (Proc.devRef .tc main_v22) = _
  after_results
  exact W2_v22 m ρ c
theorem V3_v24 (c : Dev nD) : V3 m ρ c main_v24 = narrowedT (m ((c : Thread nD τ).loc main_arg6)) := by
  show StableHlo.after hostOps1 (W2 m ρ c) (Proc.devRef .tc main_v24) = _
  after_results
  exact W2_v24 m ρ c
theorem W3_v25 (c : Dev nD) : W3 m ρ c (Proc.devRef .tc main_v25) = (dat0 (V1 m ρ) c).arrAt 4 cfg0.N := by
  show StableHlo.after hostOps1 (W2 m ρ c) (Proc.devRef .tc main_v25) = _
  after_results
  exact W2_v25 m ρ c

/-! ## The two results -/

/-- The node result: the row update of the aggregated messages and the node array. -/
def nodeResult (c : Dev nD) : FVec Ideal S50000x128 .f32 :=
  Cert.RowUpdate.rows (n := 50000) (agg (m ((c : Thread nD τ).loc main_arg1)) (m ((c : Thread nD τ).loc main_arg2)))
    (m ((c : Thread nD τ).loc main_arg0)) (narrowed (m ((c : Thread nD τ).loc main_arg3))) (narrowedT (m ((c : Thread nD τ).loc main_arg6)))

/-- The edge result: the row update of the endpoint differences and the edge array. -/
def edgeResult (c : Dev nD) : FVec Ideal S800000x128 .f32 :=
  Cert.RowUpdate.rows (n := 800000) (diff (m ((c : Thread nD τ).loc main_arg0)) (m ((c : Thread nD τ).loc main_arg1)))
    (m ((c : Thread nD τ).loc main_arg2)) (narrowed (m ((c : Thread nD τ).loc main_arg4))) (narrowedT (m ((c : Thread nD τ).loc main_arg5)))

theorem W4_v31 (c : Dev nD) : W4 m ρ c (Proc.devRef .tc main_v31) = nodeResult m c := by
  refine (W4_arr m ρ c 4).trans ((Cert.KernelIdeal.NodeLayer.final (V3 m ρ) c).trans ?_)
  show Cert.RowUpdate.rows (n := 50000) (V3 m ρ c main_v30) (V3 m ρ c main_arg0) (V3 m ρ c main_v22) (V3 m ρ c main_v24) = _
  rw [V3_v30, V3_arg0, V3_v22, V3_v24]
  rfl

theorem W4_v25 (c : Dev nD) : W4 m ρ c (Proc.devRef .tc main_v25) = edgeResult m c := by
  refine (W4_of_ne m ρ c main_v25 (by decide)).trans ((W3_v25 m ρ c).trans ((Cert.KernelIdeal.EdgeLayer.final (V1 m ρ) c).trans ?_))
  show Cert.RowUpdate.rows (n := 800000) (V1 m ρ c main_v18) (V1 m ρ c main_arg2) (V1 m ρ c main_v19) (V1 m ρ c main_v21) = _
  rw [V1_v18, V1_arg2, V1_v19, V1_v21]
  rfl

end Cert.KernelIdeal.Boundaries

end
-- ==== Proof.RefLayers.lean ====
/-
  The reference's two results as row updates. Each is two dot_generals of whole arrays, two sums, and a maximum with the
  broadcast zero constant: the host's spelling of max (A·W + X·B + X) 0, whatever the row array A is.
-/
import proofs.«176103_j55585466745382_2_alg».proof.Proof.Gen.ReferenceIdeal.Run
import proofs.«176103_j55585466745382_2_alg».proof.Proof.RowUpdate

noncomputable section

namespace Cert.ReferenceIdeal.Layers

open Cert.ReferenceIdeal Cert.ReferenceIdeal.Gen Idealize.ShloMosaic Idealize.ShloMosaic.TcCoe Idealize.SL.Sem

/-- The edge layer on the host, for any [800000, 128] row array D in place of the difference array. -/
theorem edge_form (D X : FVec Ideal S800000x128 .f32) (W B : FVec Ideal S128x128 .f32) :
    maximumf (F := Ideal) (addf (addf (Host.dotGeneral dot_S800000x128_S128x128_S800000x128_1_0_0_1_n_n none D W)
        (Host.dotGeneral dot_S800000x128_S128x128_S800000x128_1_0_0_1_n_n none X B)) X)
      (broadcastInDim S800000x128 ![] bcast_S_S800000x128 (constant (F := Ideal) S_ .f32 0x00000000#32))
      = Cert.RowUpdate.rows (n := 800000) D X W B :=
  Cert.RowUpdate.host_form (n := 800000) _ _ D X W B

/-- The node layer on the host, for any [50000, 128] row array S in place of the aggregated messages. -/
theorem node_form (S X : FVec Ideal S50000x128 .f32) (W B : FVec Ideal S128x128 .f32) :
    maximumf (F := Ideal) (addf (addf (Host.dotGeneral dot_S50000x128_S128x128_S50000x128_1_0_0_1_n_n none S W)
        (Host.dotGeneral dot_S50000x128_S128x128_S50000x128_1_0_0_1_n_n none X B)) X)
      (broadcastInDim S50000x128 ![] bcast_S_S50000x128 (constant (F := Ideal) S_ .f32 0x00000000#32))
      = Cert.RowUpdate.rows (n := 50000) S X W B :=
  Cert.RowUpdate.host_form (n := 50000) _ _ S X W B

end Cert.ReferenceIdeal.Layers

end
-- ==== Proof.lean ====
/-
  A message-passing layer on a graph of 50000 nodes and 800000 edges, 128 channels: the kernel program against its
  plain reference, equal result by result over the extended reals.

  Both programs compute, with D[e] = x[target e] − x[source e] and S[v] = Σ_{e : target e = v} e[e],

      e_new = max (D · W_en + e · beta_eᵀ + e) 0        x_new = max (S · W_ne + x · beta_nᵀ + x) 0.

  The reference does it with whole-array host operations. The kernel program gathers, subtracts and scatter-adds with the
  SAME host operations, and runs each of the two dense updates as a pallas_call over row blocks (125 blocks of 6400 edge
  rows, 10 blocks of 5000 node rows), rounding the matmul operands to a narrower float format, which is the identity at
  the ideal values. An entry of such an update depends on one row of each row operand only, so the blocks of the calls'
  results are the blocks of one whole-array function (`Cert.RowUpdate.rows`, modules EdgeLayer and NodeLayer); the arrays
  the calls find are explicit terms of the arguments (module HostValues); the reference's results are the same function of
  the same terms (module RefLayers). No law of arithmetic beyond reading a matrix product as a sum is used, so the
  finiteness of the inputs is never opened. The idealized kernel is the kernel's own text read at the ideal values (no
  operation was rewritten), so `preserves` is `True`.
-/
import proofs.«176103_j55585466745382_2_alg».proof.Defs
import proofs.«176103_j55585466745382_2_alg».proof.Proof.Gen.Kernel
import proofs.«176103_j55585466745382_2_alg».proof.Proof.Gen.Kernel.Skeleton
import proofs.«176103_j55585466745382_2_alg».proof.Proof.Gen.Kernel.Launch
import proofs.«176103_j55585466745382_2_alg».proof.Proof.Gen.Kernel.Points
import proofs.«176103_j55585466745382_2_alg».proof.Proof.Gen.Kernel.Frame
import proofs.«176103_j55585466745382_2_alg».proof.Proof.Gen.KernelIdeal
import proofs.«176103_j55585466745382_2_alg».proof.Proof.Gen.KernelIdeal.Skeleton
import proofs.«176103_j55585466745382_2_alg».proof.Proof.Gen.KernelIdeal.Launch
import proofs.«176103_j55585466745382_2_alg».proof.Proof.Gen.KernelIdeal.Points
import proofs.«176103_j55585466745382_2_alg».proof.Proof.Gen.KernelIdeal.Frame
import proofs.«176103_j55585466745382_2_alg».proof.Proof.Gen.ReferenceIdeal
import proofs.«176103_j55585466745382_2_alg».proof.Proof.Gen.Pre_finite_inputs
import proofs.«176103_j55585466745382_2_alg».proof.Proof.Gen.ReferenceIdeal.Run
import proofs.«176103_j55585466745382_2_alg».proof.Proof.KernelRun
import proofs.«176103_j55585466745382_2_alg».proof.Proof.HostValues
import proofs.«176103_j55585466745382_2_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the node result at the row update of the aggregated messages and the node array, and the
    edge result at the row update of the endpoint differences and the edge array. -/
theorem algebraic : Cert.algebraic_KernelIdeal_ReferenceIdeal := by
  intro m ρ m' ρ' _ hagree
  refine ⟨fun c => Cert.KernelIdeal.Boundaries.nodeResult m c, fun c => Cert.KernelIdeal.Boundaries.edgeResult m c, ?_, ?_⟩
  · exact (θ_run Cert.KernelIdeal.defs _ _).mono
      (fun r h c => ⟨(h c).1.trans (Cert.KernelIdeal.Boundaries.W4_v31 m ρ c),
        (h c).2.1.trans (Cert.KernelIdeal.Boundaries.W4_v25 m ρ c), (h c).2.2⟩)
      (Cert.KernelIdeal.Run.run m ρ)
  · refine (θ_run Cert.ReferenceIdeal.defs _ _).mono (fun r h c => ?_) (Cert.ReferenceIdeal.Value.run (F := Ideal) m' ρ')
    obtain ⟨h34, h35, hargs⟩ := h c
    obtain ⟨a0, a1, a2, a3, a4, a5, a6⟩ := hagree c
    refine ⟨h34.trans ?_, h35.trans ?_, hargs⟩
    · rw [a0, a1, a2, a3, a6]
      exact (Cert.ReferenceIdeal.Layers.node_form _ _ _ _).trans rfl
    · rw [a0, a1, a2, a4, a5]
      exact (Cert.ReferenceIdeal.Layers.edge_form _ _ _ _).trans rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
